-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S16384x256 : Shape := ⟨2, ![16384, 256]⟩
abbrev S16384x28 : Shape := ⟨2, ![16384, 28]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S16384x256 : S_.BroadcastsInDim S16384x256 (![] : Fin 0 → Fin S16384x256.rank)
  reducesTo_S16384x256_S_d0_1 : S16384x256.ReducesTo [0, 1] S_
  bcast_S_S16384x28 : S_.BroadcastsInDim S16384x28 (![] : Fin 0 → Fin S16384x28.rank)
  reducesTo_S16384x28_S_d0_1 : S16384x28.ReducesTo [0, 1] S_

variable [Facts]

def fn {F : FTy → Type} [FloatOps F] (main_arg0 : FVec F S8192x256 .f32) (main_arg1 : FVec F S16384x256 .f32) (main_arg2 : FVec F S16384x28 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S16384x256 .f32 := Host.absf main_arg1
  let main_cst_0 : FVec F S_ .f32 := constant S_ .f32 0x7F800000#32
  let main_v5 : FVec F S16384x256 .f32 := broadcastInDim S16384x256 ![] bcast_S_S16384x256 main_cst_0
  let main_v6 : IVec S16384x256 1 := cmpf .olt main_v4 main_v5
  let main_c_1 : IVec S_ 1 := constantI S_ 1 1#1
  let main_v7 : IVec S_ 1 := (fun x v => Host.reduce IntOp.andi x v reducesTo_S16384x256_S_d0_1 h_S_) main_v6 main_c_1
  let main_v8 : IVec S_ 1 := andi main_v3 main_v7
  let main_v9 : FVec F S16384x28 .f32 := Host.absf main_arg2
  let main_cst_2 : FVec F S_ .f32 := constant S_ .f32 0x7F800000#32
  let main_v10 : FVec F S16384x28 .f32 := broadcastInDim S16384x28 ![] bcast_S_S16384x28 main_cst_2
  let main_v11 : IVec S16384x28 1 := cmpf .olt main_v9 main_v10
  let main_c_3 : IVec S_ 1 := constantI S_ 1 1#1
  let main_v12 : IVec S_ 1 := (fun x v => Host.reduce IntOp.andi x v reducesTo_S16384x28_S_d0_1 h_S_) main_v11 main_c_3
  let main_v13 : IVec S_ 1 := andi main_v8 main_v12
  main_v13
-- ==== Kernel.lean ====
abbrev S8192x256 : Shape := ⟨2, ![8192, 256]⟩
abbrev S16384x256 : Shape := ⟨2, ![16384, 256]⟩
abbrev S16384x28 : Shape := ⟨2, ![16384, 28]⟩
abbrev S_ : Shape := ⟨0, ![]⟩
abbrev S8192 : Shape := ⟨1, ![8192]⟩
abbrev S8192x1 : Shape := ⟨2, ![8192, 1]⟩
abbrev S16384 : Shape := ⟨1, ![16384]⟩
abbrev S16384x1 : Shape := ⟨2, ![16384, 1]⟩
abbrev S16384x29 : Shape := ⟨2, ![16384, 29]⟩
abbrev S8192x29 : Shape := ⟨2, ![8192, 29]⟩
abbrev S1024x256 : Shape := ⟨2, ![1024, 256]⟩
abbrev S1024x29 : Shape := ⟨2, ![1024, 29]⟩
abbrev S1024x1024 : Shape := ⟨2, ![1024, 1024]⟩
abbrev S8192x28 : Shape := ⟨2, ![8192, 28]⟩

abbrev nBuf : Space → Nat
  | .hbm => 33
  | .vmem => 9
  | .smem => 0
  | _ => 0

abbrev bufTy : (tb : Table) → Fin (tcTables nBuf tb) → BufTy
  | .hbm, ⟨0, _⟩ => ⟨S8192x256, .f32⟩
  | .hbm, ⟨1, _⟩ => ⟨S16384x256, .f32⟩
  | .hbm, ⟨2, _⟩ => ⟨S16384x28, .f32⟩
  | .hbm, ⟨3, _⟩ => ⟨S8192x256, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x256, .f32⟩
  | .hbm, ⟨12, _⟩ => ⟨S8192x256, .f32⟩
  | .hbm, ⟨13, _⟩ => ⟨S8192x256, .bf16⟩
  | .hbm, ⟨14, _⟩ => ⟨S16384x256, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x256, .f32⟩
  | .hbm, ⟨23, _⟩ => ⟨S16384x256, .f32⟩
  | .hbm, ⟨24, _⟩ => ⟨S16384x256, .bf16⟩
  | .hbm, ⟨25, _⟩ => ⟨S_, .f32⟩
  | .hbm, ⟨26, _⟩ => ⟨S16384x1, .f32⟩
  | .hbm, ⟨27, _⟩ => ⟨S16384x29, .f32⟩
  | .hbm, ⟨28, _⟩ => ⟨S16384x29, .bf16⟩
  | .hbm, ⟨29, _⟩ => ⟨S8192x29, .f32⟩
  | .hbm, ⟨30, _⟩ => ⟨S8192x28, .f32⟩
  | .hbm, ⟨31, _⟩ => ⟨S8192x1, .f32⟩
  | .hbm, ⟨32, _⟩ => ⟨S8192, .f32⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x29, .bf16⟩
  | .local _ .vmem, ⟨5, _⟩ => ⟨S1024x29, .bf16⟩
  | .local _ .vmem, ⟨6, _⟩ => ⟨S1024x29, .f32⟩
  | .local _ .vmem, ⟨7, _⟩ => ⟨S1024x29, .f32⟩
  | .local _ .vmem, ⟨8, _⟩ => ⟨S1024x29, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_call1_v0 : Ref sig .tc := ⟨.hbm, 14, rfl⟩
abbrev main_call1_cst : Ref sig .tc := ⟨.hbm, 15, rfl⟩
abbrev main_call1_v1 : Ref sig .tc := ⟨.hbm, 16, rfl⟩
abbrev main_call1_v2 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v19 : BitVec 1 := Scalar.cmpi .eq arg1 c15_i32
  let v20 : BitVec 32 := Scalar.extui v19
  let c0_i32_11 : BitVec 32 := 0#32
  let v21 : BitVec 1 := Scalar.cmpi .ne v20 c0_i32_11
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x29 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x29 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  bitsLt_bf16_f32 : FTy.bits .bf16 < FTy.bits .f32
  reducesTo_S16384x256_S16384_d1 : S16384x256.ReducesTo [1] S16384
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x256_0_1 : S16384x1.BroadcastsInDim S16384x256 (![0, 1] : Fin 2 → Fin S16384x256.rank)
  concatenates_S16384x28_S16384x1_S16384x29_d1 : Shape.Concatenates [S16384x28, S16384x1] S16384x29 1
  inb_S1024x29_S1024x29_0_0 : ∀ a, (![0, 0] : Fin 2 → Nat) a + S1024x29.size a ≤ S1024x29.size a
  h_S1024x29 : 0 < S1024x29.numel
  shapeCasts_S1024x29_S1024x29 : S1024x29.ShapeCasts S1024x29
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  slices_S8192x29_S8192x28_0_0 : S8192x29.Slices ![0, 0] S8192x28
  slices_S8192x29_S8192x1_0_28 : S8192x29.Slices ![0, 28] S8192x1
  shapeCasts_S8192x1_S8192 : S8192x1.ShapeCasts S8192
  dot_S1024x256_S1024x256_S1024x1024_1_1_0_0_n_n_wf : DotDims.WF S1024x256 S1024x256 S1024x1024 [1] [1] [0] [0] [] []
  dot_S1024x1024_S1024x29_S1024x29_1_0_0_1_n_n_wf : DotDims.WF S1024x1024 S1024x29 S1024x29 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .bf16 = 32 ∨ (Rect.block (s := S8192x256) S1024x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S16384x256.size a
  hwx0_1 : ∀ i : grid0.Coords, EltTy.bits .bf16 = 32 ∨ (Rect.block (s := S16384x256) S1024x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x29.size a ≤ S16384x29.size a
  hwx0_2 : ∀ i : grid0.Coords, EltTy.bits .bf16 = 32 ∨ (Rect.block (s := S16384x29) S1024x29.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x29.size a ≤ S8192x29.size a
  hwx0_3 : ∀ i : grid0.Coords, EltTy.bits .f32 = 32 ∨ (Rect.block (s := S8192x29) S1024x29.size (cc0_transform_3 i) (hinb0_3 i)).WholeWords (EltTy.packing .f32)

variable [Facts₀]

def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf
def dot_S1024x1024_S1024x29_S1024x29_1_0_0_1_n_n : DotDims S1024x1024 S1024x29 S1024x29 where
  lhsContracting := [1]
  rhsContracting := [0]
  lhsNonContracting := [0]
  rhsNonContracting := [1]
  lhsBatch := []
  rhsBatch := []
  wf := dot_S1024x1024_S1024x29_S1024x29_1_0_0_1_n_n_wf

abbrev win0_0 : Pipeline.Window sig grid0 :=
  Pipeline.Window.ofSpec (Memref.whole main_v5) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1024x29.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1024x29.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x256 : Shape := ⟨2, ![8192, 256]⟩
abbrev S16384x256 : Shape := ⟨2, ![16384, 256]⟩
abbrev S16384x28 : Shape := ⟨2, ![16384, 28]⟩
abbrev S_ : Shape := ⟨0, ![]⟩
abbrev S8192 : Shape := ⟨1, ![8192]⟩
abbrev S8192x1 : Shape := ⟨2, ![8192, 1]⟩
abbrev S16384 : Shape := ⟨1, ![16384]⟩
abbrev S16384x1 : Shape := ⟨2, ![16384, 1]⟩
abbrev S256x16384 : Shape := ⟨2, ![256, 16384]⟩
abbrev S8192x16384 : Shape := ⟨2, ![8192, 16384]⟩
abbrev S8192x28 : Shape := ⟨2, ![8192, 28]⟩

abbrev nBuf : Space → Nat
  | .hbm => 34
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S16384x256, .f32⟩
  | .hbm, ⟨2, _⟩ => ⟨S16384x28, .f32⟩
  | .hbm, ⟨3, _⟩ => ⟨S8192x256, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x256, .f32⟩
  | .hbm, ⟨12, _⟩ => ⟨S8192x256, .f32⟩
  | .hbm, ⟨13, _⟩ => ⟨S16384x256, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x256, .f32⟩
  | .hbm, ⟨22, _⟩ => ⟨S16384x256, .f32⟩
  | .hbm, ⟨23, _⟩ => ⟨S256x16384, .f32⟩
  | .hbm, ⟨24, _⟩ => ⟨S8192x16384, .f32⟩
  | .hbm, ⟨25, _⟩ => ⟨S8192x16384, .f32⟩
  | .hbm, ⟨26, _⟩ => ⟨S_, .f32⟩
  | .hbm, ⟨27, _⟩ => ⟨S8192x16384, .f32⟩
  | .hbm, ⟨28, _⟩ => ⟨S8192x16384, .f32⟩
  | .hbm, ⟨29, _⟩ => ⟨S8192x16384, .f32⟩
  | .hbm, ⟨30, _⟩ => ⟨S8192x16384, .f32⟩
  | .hbm, ⟨31, _⟩ => ⟨S_, .f32⟩
  | .hbm, ⟨32, _⟩ => ⟨S8192, .f32⟩
  | .hbm, ⟨33, _⟩ => ⟨S8192x28, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call1_v0 : Ref sig .tc := ⟨.hbm, 13, rfl⟩
abbrev main_call1_cst : Ref sig .tc := ⟨.hbm, 14, rfl⟩
abbrev main_call1_v1 : Ref sig .tc := ⟨.hbm, 15, rfl⟩
abbrev main_call1_v2 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  reducesTo_S16384x256_S16384_d1 : S16384x256.ReducesTo [1] S16384
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x256_0_1 : S16384x1.BroadcastsInDim S16384x256 (![0, 1] : Fin 2 → Fin S16384x256.rank)
  transposes_S16384x256_S256x16384_1_0 : S16384x256.Transposes [1, 0] S256x16384
  bcast_S_S8192x16384 : S_.BroadcastsInDim S8192x16384 (![] : Fin 0 → Fin S8192x16384.rank)
  reducesTo_S8192x16384_S8192_d1 : S8192x16384.ReducesTo [1] S8192
  dot_S8192x256_S256x16384_S8192x16384_1_0_0_1_n_n_wf : DotDims.WF S8192x256 S256x16384 S8192x16384 [1] [0] [0] [1] [] []
  dot_S8192x16384_S16384x28_S8192x28_1_0_0_1_n_n_wf : DotDims.WF S8192x16384 S16384x28 S8192x28 [1] [0] [0] [1] [] []

variable [Facts₀]

def dot_S8192x256_S256x16384_S8192x16384_1_0_0_1_n_n : DotDims S8192x256 S256x16384 S8192x16384 where
  lhsContracting := [1]
  rhsContracting := [0]
  lhsNonContracting := [0]
  rhsNonContracting := [1]
  lhsBatch := []
  rhsBatch := []
  wf := dot_S8192x256_S256x16384_S8192x16384_1_0_0_1_n_n_wf
def dot_S8192x16384_S16384x28_S8192x28_1_0_0_1_n_n : DotDims S8192x16384 S16384x28 S8192x28 where
  lhsContracting := [1]
  rhsContracting := [0]
  lhsNonContracting := [0]
  rhsNonContracting := [1]
  lhsBatch := []
  rhsBatch := []
  wf := dot_S8192x16384_S16384x28_S8192x28_1_0_0_1_n_n_wf

class Facts : Prop extends Facts₀ where

variable [Facts]
-- ==== Proof.TileTerm.lean ====
/-
  What one grid point adds to the accumulator.

  At grid point (n, d) the body holds a block `q` of 1024 normalized query rows, a block `e` of 1024 normalized
  exemplar rows and the matching 1024 rows `w` of the class matrix extended by a column of ones. It forms the
  1024 x 1024 tile of row products `s p k = Σ_h q p h * e k h`, cubes each entry as `(s * s) * s`, and adds
  `Σ_k cube (s p k) * w k c` to entry (p, c) of the accumulator. The change of format before the second product is the
  identity on the extended reals, and both products start from a zero accumulator.
-/
import proofs.«112141_j56135222559421_2_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Tile

open Cert.KernelIdeal Cert.KernelIdeal.Gen Idealize.ShloMosaic Idealize.ShloMosaic.ValueIdx

/-- The first product's dimensions: rows of `q` against rows of `e`, both contracted along their 256 columns. -/
abbrev rowsByRows := dot_S1024x256_S1024x256_S1024x1024_1_1_0_0_n_n
/-- The second product's dimensions: the 1024 x 1024 tile against the 1024 x 29 class block. -/
abbrev tileByClasses := dot_S1024x1024_S1024x29_S1024x29_1_0_0_1_n_n

/-- Row `p` of `q` against row `k` of `e`. -/
def rowDot (q e : FVec Ideal S1024x256 .bf16) (p k : Fin 1024) : EReal :=
  ∑ h : Fin 256, q (ix2 p h) * e (ix2 k h)

/-- The contribution of one block of exemplars to entry (p, c). -/
def tileTerm (q e : FVec Ideal S1024x256 .bf16) (w : FVec Ideal S1024x29 .bf16) (p : Fin 1024) (c : Fin 29) : EReal :=
  ∑ k : Fin 1024, (rowDot q e p k * rowDot q e p k * rowDot q e p k) * w (ix2 k c)

/-! ### The two products' operand indices, coordinate by coordinate -/

theorem rows_lhs0 (i : S1024x1024.Idx) (q : rowsByRows.contr.Idx) : (rowsByRows.lhsIdx i q 0).val = (i 0).val := by
  unfold DotDims.lhsIdx
  rw [dif_neg (show ¬(0 : Fin S1024x256.rank) ∈ rowsByRows.lhsBatch by decide),
    dif_pos (show (0 : Fin S1024x256.rank) ∈ rowsByRows.lhsNonContracting by decide)]
  rfl
theorem rows_lhs1 (i : S1024x1024.Idx) (q : rowsByRows.contr.Idx) : (rowsByRows.lhsIdx i q 1).val = (q ⟨0, by decide⟩).val :=
  rowsByRows.lhsIdx_val_of_single rfl i q
theorem rows_rhs0 (i : S1024x1024.Idx) (q : rowsByRows.contr.Idx) : (rowsByRows.rhsIdx i q 0).val = (i 1).val := by
  unfold DotDims.rhsIdx
  rw [dif_neg (show ¬(0 : Fin S1024x256.rank) ∈ rowsByRows.rhsBatch by decide),
    dif_pos (show (0 : Fin S1024x256.rank) ∈ rowsByRows.rhsNonContracting by decide)]
  rfl
theorem rows_rhs1 (i : S1024x1024.Idx) (q : rowsByRows.contr.Idx) : (rowsByRows.rhsIdx i q 1).val = (q ⟨0, by decide⟩).val :=
  rowsByRows.rhsIdx_val_of_single rfl i q

theorem classes_lhs0 (i : S1024x29.Idx) (q : tileByClasses.contr.Idx) : (tileByClasses.lhsIdx i q 0).val = (i 0).val := by
  unfold DotDims.lhsIdx
  rw [dif_neg (show ¬(0 : Fin S1024x1024.rank) ∈ tileByClasses.lhsBatch by decide),
    dif_pos (show (0 : Fin S1024x1024.rank) ∈ tileByClasses.lhsNonContracting by decide)]
  rfl
theorem classes_lhs1 (i : S1024x29.Idx) (q : tileByClasses.contr.Idx) : (tileByClasses.lhsIdx i q 1).val = (q ⟨0, by decide⟩).val :=
  tileByClasses.lhsIdx_val_of_single rfl i q
theorem classes_rhs0 (i : S1024x29.Idx) (q : tileByClasses.contr.Idx) : (tileByClasses.rhsIdx i q 0).val = (q ⟨0, by decide⟩).val :=
  tileByClasses.rhsIdx_val_of_single rfl i q
theorem classes_rhs1 (i : S1024x29.Idx) (q : tileByClasses.contr.Idx) : (tileByClasses.rhsIdx i q 1).val = (i 1).val := by
  unfold DotDims.rhsIdx
  rw [dif_neg (show ¬(1 : Fin S1024x29.rank) ∈ tileByClasses.rhsBatch by decide),
    dif_pos (show (1 : Fin S1024x29.rank) ∈ tileByClasses.rhsNonContracting by decide)]
  rfl

/-- Entry (p, k) of the first product, into a zero accumulator, is row `p` of `q` against row `k` of `e`. -/
theorem scores_apply (q e : FVec Ideal S1024x256 .bf16) (p k : Fin 1024) :
    matmul rowsByRows none q e (constant (F := Ideal) S1024x1024 .f32 0x00000000#32) (ix2 p k) = rowDot q e p k := by
  simp only [matmul]
  rw [Ideal.matmul_constant_zero_apply, ← Equiv.sum_comp (contrEquiv1 rowsByRows 256 rfl rfl).symm]
  refine Finset.sum_congr rfl fun h _ => ?_
  have hh := contrEquiv1_symm_val rowsByRows 256 rfl rfl h
  have el : rowsByRows.lhsIdx (ix2 p k) ((contrEquiv1 rowsByRows 256 rfl rfl).symm h) = ix2 p h :=
    funext fun a => Fin.ext (by
      match a with
      | ⟨0, _⟩ => exact rows_lhs0 _ _
      | ⟨1, _⟩ => exact (rows_lhs1 _ _).trans hh)
  have er : rowsByRows.rhsIdx (ix2 p k) ((contrEquiv1 rowsByRows 256 rfl rfl).symm h) = ix2 k h :=
    funext fun a => Fin.ext (by
      match a with
      | ⟨0, _⟩ => exact rows_rhs0 _ _
      | ⟨1, _⟩ => exact (rows_rhs1 _ _).trans hh)
  rw [el, er]

/-- Entry (p, c) of the second product, into a zero accumulator, of any tile `a` against the class block `w`. -/
theorem classes_apply (a : FVec Ideal S1024x1024 .bf16) (w : FVec Ideal S1024x29 .bf16) (p : Fin 1024) (c : Fin 29) :
    matmul tileByClasses none a w (constant (F := Ideal) S1024x29 .f32 0x00000000#32) (ix2 p c)
      = ∑ k : Fin 1024, a (ix2 p k) * w (ix2 k c) := by
  simp only [matmul]
  rw [Ideal.matmul_constant_zero_apply, ← Equiv.sum_comp (contrEquiv1 tileByClasses 1024 rfl rfl).symm]
  refine Finset.sum_congr rfl fun k _ => ?_
  have hk := contrEquiv1_symm_val tileByClasses 1024 rfl rfl k
  have el : tileByClasses.lhsIdx (ix2 p c) ((contrEquiv1 tileByClasses 1024 rfl rfl).symm k) = ix2 p k :=
    funext fun a => Fin.ext (by
      match a with
      | ⟨0, _⟩ => exact classes_lhs0 _ _
      | ⟨1, _⟩ => exact (classes_lhs1 _ _).trans hk)
  have er : tileByClasses.rhsIdx (ix2 p c) ((contrEquiv1 tileByClasses 1024 rfl rfl).symm k) = ix2 k c :=
    funext fun a => Fin.ext (by
      match a with
      | ⟨0, _⟩ => exact (classes_rhs0 _ _).trans hk
      | ⟨1, _⟩ => exact classes_rhs1 _ _)
  rw [el, er]

/-- The value the body stores back into the accumulator, at entry (p, c): what the accumulator held there plus
    the block's contribution. -/
theorem stored_apply (v3 v5 : Vec Ideal S1024x256 .bf16) (v11 : Vec Ideal S1024x29 .f32) (v12 : Vec Ideal S1024x29 .bf16)
    (p : Fin 1024) (c : Fin 29) :
    k0_pay2 (F := Ideal) v3 v5 v11 v12 (ix2 p c) = v11 (ix2 p c) + tileTerm v3 v5 v12 p c := by
  unfold k0_pay2
  simp only [shapeCast_self]
  refine (addf_apply _ _ _).trans (congrArg (v11 (ix2 p c) + ·) ?_)
  refine (classes_apply _ v12 p c).trans (Finset.sum_congr rfl fun k _ => ?_)
  refine congrArg (· * v12 (ix2 k c)) ?_
  show (matmul rowsByRows none v3 v5 (constant (F := Ideal) S1024x1024 .f32 0x00000000#32) (ix2 p k)
      * matmul rowsByRows none v3 v5 (constant (F := Ideal) S1024x1024 .f32 0x00000000#32) (ix2 p k))
      * matmul rowsByRows none v3 v5 (constant (F := Ideal) S1024x1024 .f32 0x00000000#32) (ix2 p k) = _
  rw [scores_apply]

/-- The zero block the first point of each row block stores: every entry is zero. -/
theorem cleared_apply (y : S1024x29.Idx) : k0_pay1 (F := Ideal) y = 0 := by
  unfold k0_pay1
  simp only [shapeCast_self]
  exact Ideal.ofBits_zero_f32

end Cert.KernelIdeal.Tile

end
-- ==== Proof.Accumulator.lean ====
/-
  The accumulator, point by point.

  The grid has 8 row blocks of 16 points each; the body keeps one 1024 x 29 accumulator across the points. At the
  first point of a row block it stores zeros and then the point's contribution; at every later point it adds the
  point's contribution to what the point before left; at the last point it also copies the accumulator into the
  output block, the only block that is written back. First each case of the body is read as the value it stores
  (for any float values), then, on the extended reals, the accumulator after point `n` is shown to be the running
  sum of the contributions of `n`'s row block, by induction on `n`.
-/
import proofs.«112141_j56135222559421_2_alg».proof.Proof.Gen.KernelIdeal.Frame
import proofs.«112141_j56135222559421_2_alg».proof.Proof.TileTerm
import Idealize.ShloMosaic.Lib.Pipeline.Value
import Idealize.ShloMosaic.Lib.Tactic

noncomputable section

namespace Cert.KernelIdeal.Acc

open Cert.KernelIdeal Cert.KernelIdeal.Gen Idealize.ShloMosaic Idealize.ShloMosaic.TcCoe Idealize.SL.Sem
open Idealize.ShloMosaic.ValueIdx Idealize.ShloMosaic.Tactic
open Idealize.ShloMosaic.Pipeline (Dat)

variable {F : FTy → Type} [FloatOps F]

theorem zeroOffsets : (![0, 0] : Fin 2 → Nat) = fun _ => 0 := funext fun a => by fin_cases a <;> rfl

/-! ## What each case of the body leaves, as the stored value of the blocks it was handed

  In every case the body's last store into the accumulator covers it whole, so the accumulator ends at that store's
  value: the stored value of the two row blocks, the class block, and what the accumulator held when it was loaded
  (the zero block just stored at the first point of a row block; what the point before left otherwise). At the
  last point of a row block the output block is a copy of the accumulator. -/

/-- A middle point: the accumulator ends at the stored value over what it held. -/
theorem acc_middle (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x29 .bf16) (harg4 : arg4.IsWhole) (arg5 : Memref sig .tc .vmem S1024x29 .f32) (harg5 : arg5.IsWhole) (arg6 : Memref sig .tc .vmem S1024x29 .f32) (harg6 : arg6.IsWhole) (hc0 : ¬cond0_0 i) (hc1 : ¬cond0_1 i)
    (x0 x1 : Vec F S1024x256 .bf16) (x2 : Vec F S1024x29 .bf16) (xs0 : Vec F S1024x29 .f32) :
    sout0_B_0 c i arg2 harg2 arg3 harg3 arg4 harg4 arg5 harg5 arg6 harg6 hc0 hc1 x0 x1 x2 xs0 = k0_pay2 x0 x1 xs0 x2 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  rw [View.canon_unit_zero zeroOffsets]
  simp only [View.readAt_eq_ld, harg2.read_unread, harg3.read_unread, harg4.read_unread, harg6.read_unread,
    View.ld_unit_zero (S := S1024x256) zeroOffsets, View.ld_unit_zero (S := S1024x29) zeroOffsets]

/-- The first point of a row block: the accumulator ends at the stored value over the zero block. -/
theorem acc_first (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x29 .bf16) (harg4 : arg4.IsWhole) (arg5 : Memref sig .tc .vmem S1024x29 .f32) (harg5 : arg5.IsWhole) (arg6 : Memref sig .tc .vmem S1024x29 .f32) (harg6 : arg6.IsWhole) (hc0 : cond0_0 i) (hc1 : ¬cond0_1 i)
    (x0 x1 : Vec F S1024x256 .bf16) (x2 : Vec F S1024x29 .bf16) :
    sout0_A_0 c i arg2 harg2 arg3 harg3 arg4 harg4 arg5 harg5 arg6 harg6 hc0 hc1 x0 x1 x2 = k0_pay2 x0 x1 (k0_pay1 (F := F)) x2 := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S1024x29) zeroOffsets, View.readCov_unit_zero (S := S1024x29) _ zeroOffsets]
  simp only [View.readAt_eq_ld, harg2.read_unread, harg3.read_unread, harg4.read_unread, harg6.read_unread,
    View.ld_unit_zero (S := S1024x256) zeroOffsets, View.ld_unit_zero (S := S1024x29) zeroOffsets]

/-- The last point of a row block: the accumulator ends at the stored value over what it held, -/
theorem acc_last (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x29 .bf16) (harg4 : arg4.IsWhole) (arg5 : Memref sig .tc .vmem S1024x29 .f32) (harg5 : arg5.IsWhole) (arg6 : Memref sig .tc .vmem S1024x29 .f32) (harg6 : arg6.IsWhole) (hc0 : ¬cond0_0 i) (hc1 : cond0_1 i)
    (x0 x1 : Vec F S1024x256 .bf16) (x2 : Vec F S1024x29 .bf16) (xs0 : Vec F S1024x29 .f32) :
    sout0_C_0 c i arg2 harg2 arg3 harg3 arg4 harg4 arg5 harg5 arg6 harg6 hc0 hc1 x0 x1 x2 xs0 = k0_pay2 x0 x1 xs0 x2 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero zeroOffsets]
  simp only [View.readAt_eq_ld, harg2.read_unread, harg3.read_unread, harg4.read_unread, harg6.read_unread,
    View.ld_unit_zero (S := S1024x256) zeroOffsets, View.ld_unit_zero (S := S1024x29) zeroOffsets]

/-- and the output block is a copy of it. -/
theorem out_last (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x29 .bf16) (harg4 : arg4.IsWhole) (arg5 : Memref sig .tc .vmem S1024x29 .f32) (harg5 : arg5.IsWhole) (arg6 : Memref sig .tc .vmem S1024x29 .f32) (harg6 : arg6.IsWhole) (hc0 : ¬cond0_0 i) (hc1 : cond0_1 i)
    (x0 x1 : Vec F S1024x256 .bf16) (x2 : Vec F S1024x29 .bf16) (xs0 : Vec F S1024x29 .f32) :
    out0_C_3 c i arg2 harg2 arg3 harg3 arg4 harg4 arg5 harg5 arg6 harg6 hc0 hc1 x0 x1 x2 xs0 = k0_pay2 x0 x1 xs0 x2 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero zeroOffsets, View.readCov_unit_zero (S := S1024x29) _ zeroOffsets]
  simp only [View.readAt_eq_ld, harg2.read_unread, harg3.read_unread, harg4.read_unread, harg6.read_unread,
    View.ld_unit_zero (S := S1024x256) zeroOffsets, View.ld_unit_zero (S := S1024x29) zeroOffsets]

/-! ## The accumulator after each point, on the extended reals

  Grid point number `t` is (row block `t / 16`, exemplar block `t % 16`). After it the accumulator's entry (p, c)
  holds the sum of the contributions of the points `16 * (t / 16) + d`, `d ≤ t % 16`: the first point of a row block
  starts from zero, every later one adds to what the point before left. Proved by induction on the point. -/

section OnReals

variable (m : (ℓ : Loc nD τ sig) → Buf (Elt Ideal) ℓ)

/-- What grid point `t` adds to entry (p, c): the contribution of the three blocks the point is handed. -/
def pointAdds (c : Dev nD) (t : Fin cfg0.N) (p : Fin 1024) (cc : Fin 29) : EReal :=
  Tile.tileTerm (iblk m c 0 t) (iblk m c 1 t) (iblk m c 2 t) p cc

/-- The same for a point given by its number, zero beyond the grid. -/
def addsAt (c : Dev nD) (t : ℕ) (p : Fin 1024) (cc : Fin 29) : EReal :=
  if h : t < cfg0.N then pointAdds m c ⟨t, h⟩ p cc else 0

theorem addsAt_of_lt (c : Dev nD) (t : ℕ) (h : t < cfg0.N) (p : Fin 1024) (cc : Fin 29) :
    addsAt m c t p cc = pointAdds m c ⟨t, h⟩ p cc := dif_pos h

/-- After the first point of a row block the accumulator holds that point's contribution. -/
theorem after_first (c : Dev nD) (t : Fin cfg0.N) (h0 : t.val % 16 = 0) (p : Fin 1024) (cc : Fin 29) :
    (outsAt0 m c t.val t.isLt).2 (ix2 p cc) = pointAdds m c t p cc := by
  have hN : t.val < 128 := lt_of_lt_of_eq t.isLt (show cfg0.N = 128 from N_0)
  have h1 : ¬t.val % 16 = 15 := by omega
  rw [outsAt0_A m c t h0 h1]
  dsimp only
  refine (congrFun (acc_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h))
    (iblk m c 0 t) (iblk m c 1 t) (iblk m c 2 t)) (ix2 p cc)).trans ?_
  refine (Tile.stored_apply (iblk m c 0 t) (iblk m c 1 t) (k0_pay1 (F := Ideal)) (iblk m c 2 t) p cc).trans ?_
  rw [Tile.cleared_apply, zero_add]
  rfl

/-- After any later point it holds what the point before left plus this point's contribution. -/
theorem after_later (c : Dev nD) (t : Fin cfg0.N) (h0 : ¬t.val % 16 = 0) (p : Fin 1024) (cc : Fin 29) :
    (outsAt0 m c t.val t.isLt).2 (ix2 p cc)
      = (outsAt0 m c (t.val - 1) (Nat.lt_of_le_of_lt (Nat.sub_le _ _) t.isLt)).2 (ix2 p cc) + pointAdds m c t p cc := by
  by_cases h1 : t.val % 16 = 15
  · rw [outsAt0_C m c t h0 h1]
    dsimp only
    refine (congrFun (acc_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
      (iblk m c 0 t) (iblk m c 1 t) (iblk m c 2 t)
      (outsAt0 m c (t.val - 1) (Nat.lt_of_le_of_lt (Nat.sub_le _ _) t.isLt)).2) (ix2 p cc)).trans ?_
    exact Tile.stored_apply (iblk m c 0 t) (iblk m c 1 t)
      (outsAt0 m c (t.val - 1) (Nat.lt_of_le_of_lt (Nat.sub_le _ _) t.isLt)).2 (iblk m c 2 t) p cc
  · rw [outsAt0_B m c t h0 h1]
    dsimp only
    refine (congrFun (acc_middle (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h))
      (iblk m c 0 t) (iblk m c 1 t) (iblk m c 2 t)
      (outsAt0 m c (t.val - 1) (Nat.lt_of_le_of_lt (Nat.sub_le _ _) t.isLt)).2) (ix2 p cc)).trans ?_
    exact Tile.stored_apply (iblk m c 0 t) (iblk m c 1 t)
      (outsAt0 m c (t.val - 1) (Nat.lt_of_le_of_lt (Nat.sub_le _ _) t.isLt)).2 (iblk m c 2 t) p cc

/-- At the last point of a row block the output block is the accumulator. -/
theorem out_is_acc (c : Dev nD) (t : Fin cfg0.N) (h0 : ¬t.val % 16 = 0) (h1 : t.val % 16 = 15) :
    (outsAt0 m c t.val t.isLt).1 = (outsAt0 m c t.val t.isLt).2 := by
  rw [outsAt0_C m c t h0 h1]
  dsimp only
  exact (out_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
      (iblk m c 0 t) (iblk m c 1 t) (iblk m c 2 t)
      (outsAt0 m c (t.val - 1) (Nat.lt_of_le_of_lt (Nat.sub_le _ _) t.isLt)).2).trans
    (acc_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
      (iblk m c 0 t) (iblk m c 1 t) (iblk m c 2 t)
      (outsAt0 m c (t.val - 1) (Nat.lt_of_le_of_lt (Nat.sub_le _ _) t.isLt)).2).symm

/-- THE RUNNING SUM: after point `n` the accumulator's entry (p, c) is the sum of the contributions of the points
    of `n`'s row block up to `n`. -/
theorem acc_sum (c : Dev nD) (n : ℕ) : ∀ (h : n < cfg0.N) (p : Fin 1024) (cc : Fin 29),
    (outsAt0 m c n h).2 (ix2 p cc) = ∑ d ∈ Finset.range (n % 16 + 1), addsAt m c (n / 16 * 16 + d) p cc := by
  induction n with
  | zero =>
    intro h p cc
    show _ = ∑ d ∈ Finset.range 1, addsAt m c (0 + d) p cc
    rw [Finset.sum_range_one, Nat.add_zero, addsAt_of_lt m c 0 h]
    exact after_first m c ⟨0, h⟩ rfl p cc
  | succ n ih =>
    intro h p cc
    by_cases h0 : (n + 1) % 16 = 0
    · have e1 : (n + 1) % 16 + 1 = 1 := by omega
      have e2 : (n + 1) / 16 * 16 = n + 1 := by omega
      rw [e1, e2, Finset.sum_range_one]
      show _ = addsAt m c (n + 1) p cc
      rw [addsAt_of_lt m c (n + 1) h]
      exact after_first m c ⟨n + 1, h⟩ h0 p cc
    · have hstep := after_later m c ⟨n + 1, h⟩ h0 p cc
      have hprev := ih (Nat.lt_of_succ_lt h) p cc
      have e1 : (n + 1) % 16 + 1 = (n % 16 + 1) + 1 := by omega
      have e2 : (n + 1) / 16 = n / 16 := by omega
      have e3 : n / 16 * 16 + (n % 16 + 1) = n + 1 := by omega
      rw [e1, e2, Finset.sum_range_succ, e3, ← hprev, addsAt_of_lt m c (n + 1) h]
      exact hstep

/-- So the block written back at the last point of a row block holds, at (p, c), the sum over the sixteen exemplar
    blocks of their contributions. -/
theorem out_sum (c : Dev nD) (t : Fin cfg0.N) (h1 : t.val % 16 = 15) (p : Fin 1024) (cc : Fin 29) :
    (outsAt0 m c t.val t.isLt).1 (ix2 p cc) = ∑ d ∈ Finset.range 16, addsAt m c (t.val / 16 * 16 + d) p cc := by
  have h0 : ¬t.val % 16 = 0 := by omega
  rw [out_is_acc m c t h0 h1, acc_sum m c t.val t.isLt p cc, h1]

end OnReals

end Cert.KernelIdeal.Acc

end
-- ==== Proof.FusedSum.lean ====
/-
  The fused result as ONE function of the three arrays the kernel is launched on.

  With `Q` the 8192 normalized query rows, `E` the 16384 normalized exemplar rows and `C` the 16384 x 29 class
  matrix whose last column is all ones, entry (n, c) of the kernel's result is
      Σ_j ((Q n · E j) * (Q n · E j) * (Q n · E j)) * C j c ,      Q n · E j = Σ_h Q n h * E j h .
  The kernel forms the sum over `j` as sixteen blocks of 1024 added one after the other; on the extended reals
  addition is commutative and associative, so the sum over all 16384 exemplars is the sum over the blocks of the
  sums inside each block (`sum_blocks`).
-/
import Idealize.ShloMosaic.PureOps.Ideal
import Idealize.ShloMosaic.Lib.ValueIdx

noncomputable section

namespace Cert.Fused

open Idealize.ShloMosaic Idealize.ShloMosaic.ValueIdx

/-- Entry (n, c) of the fused result. -/
def fused (Q : (⟨2, ![8192, 256]⟩ : Shape).Idx → EReal) (E : (⟨2, ![16384, 256]⟩ : Shape).Idx → EReal)
    (C : (⟨2, ![16384, 29]⟩ : Shape).Idx → EReal) (n : Fin 8192) (c : Fin 29) : EReal :=
  ∑ j : Fin 16384, ((∑ h : Fin 256, Q (ix2 n h) * E (ix2 j h)) * (∑ h : Fin 256, Q (ix2 n h) * E (ix2 j h))
    * (∑ h : Fin 256, Q (ix2 n h) * E (ix2 j h))) * C (ix2 j c)

/-- A sum over 16384 indices is the sum over sixteen blocks of the sums over the 1024 indices of each block. -/
theorem sum_blocks {M : Type*} [AddCommMonoid M] (f : Fin 16384 → M) :
    ∑ j : Fin 16384, f j = ∑ d : Fin 16, ∑ k : Fin 1024, f ⟨1024 * d.val + k.val, by omega⟩ := by
  rw [← Equiv.sum_comp (finProdFinEquiv (m := 16) (n := 1024)) f, Fintype.sum_prod_type]
  refine Finset.sum_congr rfl fun d _ => Finset.sum_congr rfl fun k _ => ?_
  refine congrArg f (Fin.ext ?_)
  show k.val + 1024 * d.val = 1024 * d.val + k.val
  omega

end Cert.Fused

end
-- ==== Proof.OutArray.lean ====
/-
  The array the kernel writes, as the fused function of the three arrays it is launched on.

  Grid point `t` is handed rows `1024 * (t / 16) ..` of the query array and rows `1024 * (t % 16) ..` of the exemplar and
  class arrays (the printed index maps, decided once over the 128 points). So the sixteen contributions a row block
  collects are the sixteen blocks of the sum over all exemplars, and the block written back at the last point of row
  block `b` is rows `1024 * b ..` of the fused function. The eight written-back blocks tile the 8192 x 29 array.
-/
import proofs.«112141_j56135222559421_2_alg».proof.Proof.Accumulator
import proofs.«112141_j56135222559421_2_alg».proof.Proof.FusedSum

noncomputable section

namespace Cert.KernelIdeal.Out

open Cert.KernelIdeal Cert.KernelIdeal.Gen Idealize.ShloMosaic Idealize.ShloMosaic.TcCoe Idealize.SL.Sem
open Idealize.ShloMosaic.ValueIdx
open Idealize.ShloMosaic.Pipeline (Dat)
open Cert.KernelIdeal.Acc Cert.Fused

variable (m : (ℓ : Loc nD τ sig) → Buf (Elt Ideal) ℓ)

/-- The printed index maps over the grid: the query and output windows move with the row block `t / 16`, the exemplar
    and class windows with the exemplar block `t % 16`; no window moves along its second axis. -/
theorem block_indices : ∀ t : Fin cfg0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val % 16 ∧ win0_2.index t (1 : Fin 2) = 0
    ∧ win0_3.index t (0 : Fin 2) = t.val / 16 ∧ win0_3.index t (1 : Fin 2) = 0 :=
  (by decide +kernel : ∀ t : Fin grid0.N, _)

/-- The three arrays the kernel is launched on, as the region finds them: the normalized queries, the normalized
    exemplars, the class matrix extended by its column of ones. -/
abbrev queries (c : Dev nD) : (⟨2, ![8192, 256]⟩ : Shape).Idx → EReal := V m c main_v5
abbrev exemplars (c : Dev nD) : (⟨2, ![16384, 256]⟩ : Shape).Idx → EReal := V m c main_v11
abbrev classes (c : Dev nD) : (⟨2, ![16384, 29]⟩ : Shape).Idx → EReal := V m c main_v14

/-- Row `p` of the query block at point `t` is row `1024 * (t / 16) + p` of the query array. -/
theorem block_queries (c : Dev nD) (t : Fin cfg0.N) (p : Fin 1024) (h : Fin 256) (n : Fin 8192)
    (hn : n.val = 1024 * (t.val / 16) + p.val) :
    (iblk m c 0 t : Vec Ideal S1024x256 .bf16) (ix2 p h) = queries m c (ix2 n h) := by
  obtain ⟨e0, e1, -⟩ := block_indices t
  unfold iblk
  rw [View.read_apply]
  show V m c main_v5 _ = V m c main_v5 _
  refine congrArg (V m c main_v5) (funext fun a => Fin.ext ?_)
  match a with
  | ⟨0, _⟩ => show win0_0.index t (0 : Fin 2) * 1024 + 1 * p.val = n.val; rw [e0, hn]; omega
  | ⟨1, _⟩ => show win0_0.index t (1 : Fin 2) * 256 + 1 * h.val = h.val; rw [e1]; omega

/-- Row `k` of the exemplar block at point `t` is row `1024 * (t % 16) + k` of the exemplar array. -/
theorem block_exemplars (c : Dev nD) (t : Fin cfg0.N) (k : Fin 1024) (h : Fin 256) (j : Fin 16384)
    (hj : j.val = 1024 * (t.val % 16) + k.val) :
    (iblk m c 1 t : Vec Ideal S1024x256 .bf16) (ix2 k h) = exemplars m c (ix2 j h) := by
  obtain ⟨-, -, e2, e3, -⟩ := block_indices t
  unfold iblk
  rw [View.read_apply]
  show V m c main_v11 _ = V m c main_v11 _
  refine congrArg (V m c main_v11) (funext fun a => Fin.ext ?_)
  match a with
  | ⟨0, _⟩ => show win0_1.index t (0 : Fin 2) * 1024 + 1 * k.val = j.val; rw [e2, hj]; omega
  | ⟨1, _⟩ => show win0_1.index t (1 : Fin 2) * 256 + 1 * h.val = h.val; rw [e3]; omega

/-- Row `k` of the class block at point `t` is row `1024 * (t % 16) + k` of the extended class matrix. -/
theorem block_classes (c : Dev nD) (t : Fin cfg0.N) (k : Fin 1024) (cc : Fin 29) (j : Fin 16384)
    (hj : j.val = 1024 * (t.val % 16) + k.val) :
    (iblk m c 2 t : Vec Ideal S1024x29 .bf16) (ix2 k cc) = classes m c (ix2 j cc) := by
  obtain ⟨-, -, -, -, e4, e5, -⟩ := block_indices t
  unfold iblk
  rw [View.read_apply]
  show V m c main_v14 _ = V m c main_v14 _
  refine congrArg (V m c main_v14) (funext fun a => Fin.ext ?_)
  match a with
  | ⟨0, _⟩ => show win0_2.index t (0 : Fin 2) * 1024 + 1 * k.val = j.val; rw [e4, hj]; omega
  | ⟨1, _⟩ => show win0_2.index t (1 : Fin 2) * 29 + 1 * cc.val = cc.val; rw [e5]; omega

/-- The sixteen contributions row block `b` collects at entry (p, c) are the fused function at row `1024 * b + p`:
    each is the part of the sum over all exemplars that lies in one block of 1024. -/
theorem rowblock_sum (c : Dev nD) (b : ℕ) (hb : b < 8) (p : Fin 1024) (cc : Fin 29) (n : Fin 8192)
    (hn : n.val = 1024 * b + p.val) :
    ∑ d ∈ Finset.range 16, addsAt m c (b * 16 + d) p cc = fused (queries m c) (exemplars m c) (classes m c) n cc := by
  rw [Finset.sum_range]
  unfold fused
  rw [sum_blocks]
  refine Finset.sum_congr rfl fun d _ => ?_
  have hd : d.val < 16 := d.isLt
  have ht : b * 16 + d.val < cfg0.N := by rw [show cfg0.N = 128 from N_0]; omega
  have hq : (b * 16 + d.val) / 16 = b := by omega
  have he : (b * 16 + d.val) % 16 = d.val := by omega
  rw [addsAt_of_lt m c _ ht]
  unfold pointAdds Tile.tileTerm
  refine Finset.sum_congr rfl fun k _ => ?_
  have hk : k.val < 1024 := k.isLt
  have hs : Tile.rowDot (iblk m c 0 ⟨b * 16 + d.val, ht⟩) (iblk m c 1 ⟨b * 16 + d.val, ht⟩) p k
      = ∑ h : Fin 256, queries m c (ix2 n h) * exemplars m c (ix2 ⟨1024 * d.val + k.val, by omega⟩ h) := by
    unfold Tile.rowDot
    refine Finset.sum_congr rfl fun h _ => ?_
    rw [block_queries m c ⟨b * 16 + d.val, ht⟩ p h n (by rw [hq]; exact hn),
      block_exemplars m c ⟨b * 16 + d.val, ht⟩ k h ⟨1024 * d.val + k.val, by omega⟩ (by rw [he])]
  rw [hs, block_classes m c ⟨b * 16 + d.val, ht⟩ k cc ⟨1024 * d.val + k.val, by omega⟩ (by rw [he])]

/-- The fused function as contents of the 8192 x 29 array the kernel writes. -/
def result (c : Dev nD) : S8192x29.Idx → EReal :=
  fun i => fused (queries m c) (exemplars m c) (classes m c) ⟨(i 0).val, (i 0).isLt⟩ ⟨(i 1).val, (i 1).isLt⟩

theorem result_apply (c : Dev nD) (i : S8192x29.Idx) (n : Fin 8192) (cc : Fin 29) (h0 : (i 0).val = n.val)
    (h1 : (i 1).val = cc.val) :
    result m c i = fused (queries m c) (exemplars m c) (classes m c) n cc := by
  unfold result
  have e0 : (⟨(i 0).val, (i 0).isLt⟩ : Fin 8192) = n := Fin.ext h0
  have e1 : (⟨(i 1).val, (i 1).isLt⟩ : Fin 29) = cc := Fin.ext h1
  rw [e0, e1]

/-- The output's blocks are whole blocks: what is written back of a block's contents `X`, at (p, c), is `X` at (p, c). -/
theorem whole_block_apply {α : Type} (t : Fin cfg0.N) (X : S1024x29.Idx → α) (p : Fin 1024) (cc : Fin 29) :
    (cfg0.win 3).cut (grid0.coords t) X (ix2 p cc) = X (ix2 p cc) :=
  congrArg X (funext fun a => Fin.ext (by match a with | ⟨0, _⟩ => rfl | ⟨1, _⟩ => rfl))

/-- WHAT A POINT WRITES BACK (the last point of a row block) is its block of the fused function. -/
theorem flushed_eq (c : Dev nD) (t : Fin cfg0.N) (hf : (cfg0.win 3).flush t = true) :
    (dats m 0 c).flushed 3 t = ((cfg0.win 3).blk t).view.read (Elt Ideal) (result m c) := by
  have h15 : t.val % 16 = 15 := (flush0_3 t).mp hf
  have hN : t.val < 128 := lt_of_lt_of_eq t.isLt (show cfg0.N = 128 from N_0)
  obtain ⟨-, -, -, -, -, -, e6, e7⟩ := block_indices t
  show (cfg0.win 3).cut (grid0.coords t) ((dats m 0 c).after 3 t) = _
  rw [after0_3]
  funext y
  obtain ⟨p, cc, rfl⟩ : ∃ (p : Fin 1024) (cc : Fin 29), y = ix2 p cc := ⟨y 0, y 1, eq_ix2 y⟩
  rw [View.read_apply]
  refine (whole_block_apply t (outsAt0 m c t.val t.isLt).1 p cc).trans ?_
  rw [out_sum m c t h15 p cc]
  have hp : p.val < 1024 := p.isLt
  have hemb : (((cfg0.win 3).blk t).view.emb (ix2 p cc) : S8192x29.Idx)
      = ix2 (⟨1024 * (t.val / 16) + p.val, by omega⟩ : Fin 8192) cc := by
    refine funext fun a => Fin.ext ?_
    match a with
    | ⟨0, _⟩ => show win0_3.index t (0 : Fin 2) * 1024 + 1 * p.val = 1024 * (t.val / 16) + p.val; rw [e6]; omega
    | ⟨1, _⟩ => show win0_3.index t (1 : Fin 2) * 29 + 1 * cc.val = cc.val; rw [e7]; omega
  refine (rowblock_sum m c (t.val / 16) (by omega) p cc ⟨1024 * (t.val / 16) + p.val, by omega⟩ rfl).trans ?_
  refine (result_apply m c (ix2 ⟨1024 * (t.val / 16) + p.val, by omega⟩ cc) ⟨1024 * (t.val / 16) + p.val, by omega⟩ cc
    rfl rfl).symm.trans ?_
  exact (congrArg (result m c) hemb).symm.trans (cast_eq _ _).symm

/-- An index of the array is in point `t`'s block iff each coordinate is in the block's range on its axis. -/
theorem mem_block (t : Fin cfg0.N) (i : S8192x29.Idx) :
    i ∈ ((cfg0.win 3).blk t).view.set ↔ ∀ a : Fin 2, win0_3.index t a * S1024x29.size a ≤ (i a).val
      ∧ (i a).val < win0_3.index t a * S1024x29.size a + S1024x29.size a := by
  show i ∈ ((View.whole main_v15).slice (win0_3.rect t)).set ↔ _
  rw [View.set_slice_whole, Rect.mem_set_unit]
  exact Iff.rfl

/-- Row `r` of the array is written back at the last point of row block `r / 1024`. -/
theorem covered (i : S8192x29.Idx) :
    ∃ t : Fin cfg0.N, (cfg0.win 3).flush t = true ∧ i ∈ ((cfg0.win 3).blk t).view.set := by
  have hi0 : (i 0).val < 8192 := (i 0).isLt
  have hi1 : (i 1).val < 29 := (i 1).isLt
  have hN : cfg0.N = 128 := N_0
  have hlt : 16 * ((i 0).val / 1024) + 15 < cfg0.N := by rw [hN]; omega
  obtain ⟨-, -, -, -, -, -, e6, e7⟩ := block_indices ⟨16 * ((i 0).val / 1024) + 15, hlt⟩
  refine ⟨⟨16 * ((i 0).val / 1024) + 15, hlt⟩, (flush0_3 _).mpr (by show (16 * ((i 0).val / 1024) + 15) % 16 = 15; omega), ?_⟩
  rw [mem_block]
  intro a
  match a with
  | ⟨0, _⟩ =>
    show win0_3.index ⟨16 * ((i 0).val / 1024) + 15, hlt⟩ (0 : Fin 2) * 1024 ≤ (i 0).val
      ∧ (i 0).val < win0_3.index ⟨16 * ((i 0).val / 1024) + 15, hlt⟩ (0 : Fin 2) * 1024 + 1024
    rw [e6]; dsimp only; omega
  | ⟨1, _⟩ =>
    show win0_3.index ⟨16 * ((i 0).val / 1024) + 15, hlt⟩ (1 : Fin 2) * 29 ≤ (i 1).val
      ∧ (i 1).val < win0_3.index ⟨16 * ((i 0).val / 1024) + 15, hlt⟩ (1 : Fin 2) * 29 + 29
    rw [e7]; omega

/-- THE ARRAY AFTER THE RUN is the fused function of the three launched arrays. -/
theorem final (c : Dev nD) : (dats m 0 c).arrAt 3 cfg0.N = result m c :=
  (dats m 0 c).arrAt_eq_of_cover 3 (result m c) (flushed_eq m c) covered

end Cert.KernelIdeal.Out

end
-- ==== Proof.CubeLaw.lean ====
/-
  Scalar facts on the extended reals used by both sides.

  * The two float words that are evaluated: `3.0` (the reference's exponent) and `1.0` (the kernel's column of ones).
  * The odd-power law: for every extended real `s`, `|s| ^ 3 * sign s = (s * s) * s`. On a real `r` it is
    `|r|^3 * sgn r = r^3` (three cases on the sign of `r`); at `+∞` both sides are `+∞`, at `-∞` both are `-∞`.
    No finiteness is needed.
-/
import Idealize.ShloMosaic.PureOps.Ideal
import Idealize.ShloMosaic.PureOps.Ideal.Laws

noncomputable section

namespace Cert.Cube

open Idealize.ShloMosaic

/-- The word `0x40400000` is the real number three. -/
theorem ofBits_three : Ideal.ofBits .f32 0x40400000#32 = ((3 : ℝ) : EReal) := by
  simp [Ideal.ofBits, Ideal.ieee, -EReal.coe_mul]; norm_num

/-- The word `0x3F800000` is the real number one. -/
theorem ofBits_one : Ideal.ofBits .f32 0x3F800000#32 = (1 : EReal) := by
  have h : Ideal.ofBits .f32 0x3F800000#32 = ((1 : ℝ) : EReal) := by
    simp [Ideal.ofBits, Ideal.ieee, -EReal.coe_mul]; norm_num
  rw [h, EReal.coe_one]

/-- On a real number: `|r|^3 * sgn r = r * r * r`. -/
theorem real_cube (r : ℝ) : Real.rpow (max r (-r)) 3 * (SignType.sign r : ℝ) = r * r * r := by
  have h3 : Real.rpow (max r (-r)) 3 = (max r (-r)) ^ (3 : ℕ) := by
    show (max r (-r)) ^ (3 : ℝ) = _
    exact_mod_cast Real.rpow_natCast (max r (-r)) 3
  rw [h3]
  rcases lt_trichotomy r 0 with h | h | h
  · rw [sign_neg h, max_eq_right (by linarith)]; simp; ring
  · subst h; simp
  · rw [sign_pos h, max_eq_left (by linarith)]; simp; ring

/-- The odd-power law on every extended real. -/
theorem cube_law (s : EReal) : Ideal.pow (max s (-s)) ((3 : ℝ) : EReal) * Ideal.sign s = s * s * s := by
  induction s using EReal.rec with
  | bot =>
    have h : (0 : EReal) < ((3 : ℝ) : EReal) := by exact_mod_cast (by norm_num : (0 : ℝ) < 3)
    rw [EReal.neg_bot, max_eq_right bot_le]
    show (if (0 : EReal) < ((3 : ℝ) : EReal) then ⊤ else _) * Ideal.sign ⊥ = _
    rw [if_pos h, Ideal.sign_bot, EReal.bot_mul_bot, EReal.top_mul_bot]
    exact EReal.top_mul_of_neg (by norm_num)
  | top =>
    have h : (0 : EReal) < ((3 : ℝ) : EReal) := by exact_mod_cast (by norm_num : (0 : ℝ) < 3)
    rw [EReal.neg_top, max_eq_left bot_le]
    show (if (0 : EReal) < ((3 : ℝ) : EReal) then ⊤ else _) * Ideal.sign ⊤ = _
    rw [if_pos h, Ideal.sign_top, mul_one, EReal.top_mul_top, EReal.top_mul_top]
  | coe r =>
    have hm : max (r : EReal) ((-r : ℝ) : EReal) = ((max r (-r) : ℝ) : EReal) :=
      (EReal.coe_strictMono.monotone.map_max).symm
    rw [← EReal.coe_neg, hm, Ideal.pow_coe_coe, Ideal.sign_coe, ← EReal.coe_mul, ← EReal.coe_mul,
      ← EReal.coe_mul, real_cube]

end Cert.Cube

end
-- ==== Proof.RefRead.lean ====
/-
  The reference's two results, index by index, as the fused function.

  The reference normalizes the queries and the exemplars (`N0`, `N1`), forms every row product
  `s n j = Σ_h N0 n h * N1 j h`, applies `|s| ^ 3 * sign s`, and then sums the activation over the exemplars, once
  weighted by a column of the class matrix (the echo) and once unweighted (the intensity). By the odd-power law the
  activation is `(s * s) * s` on every extended real, so the echo's column `c` is the fused function at column `c` of
  any 29-column matrix that agrees with the class matrix there, and the intensity is the fused function at a column
  of ones (`a * 1 = a`, `0 + x = x`).
-/
import proofs.«112141_j56135222559421_2_alg».proof.Proof.Gen.ReferenceIdeal.Run
import proofs.«112141_j56135222559421_2_alg».proof.Proof.Gen.ReferenceIdeal.Read
import proofs.«112141_j56135222559421_2_alg».proof.Proof.CubeLaw
import proofs.«112141_j56135222559421_2_alg».proof.Proof.FusedSum

noncomputable section

namespace Cert.ReferenceIdeal.RefValue

open Cert.ReferenceIdeal Cert.ReferenceIdeal.Read Idealize.ShloMosaic Idealize.ShloMosaic.ValueIdx
open Cert.Fused Cert.Cube

variable (x0 : (⟨S8192x256, .f32⟩ : BufTy).Contents (Elt Ideal)) (x1 : (⟨S16384x256, .f32⟩ : BufTy).Contents (Elt Ideal))
  (x2 : (⟨S16384x28, .f32⟩ : BufTy).Contents (Elt Ideal))

/-- The row product of normalized query `n` and normalized exemplar `j` (the transpose read back). -/
theorem similarity_apply (n : Fin 8192) (j : Fin 16384) :
    val_main_v11 (F := Ideal) x0 x1 (ix2 n j)
      = ∑ h : Fin 256, val_main_v4 (F := Ideal) x0 (ix2 n h) * val_main_v9 (F := Ideal) x1 (ix2 j h) := by
  rw [val_main_v11_apply]
  refine Finset.sum_congr rfl fun h _ => ?_
  rw [val_main_v10_apply]
  have e1 : lidx_main_v11 (ix2 n j) h = ix2 n h :=
    funext fun a => Fin.ext (by match a with | ⟨0, _⟩ => rfl | ⟨1, _⟩ => rfl)
  have e2 : idx_main_v10 (ridx_main_v11 (ix2 n j) h) = ix2 j h :=
    funext fun a => Fin.ext (by match a with | ⟨0, _⟩ => rfl | ⟨1, _⟩ => rfl)
  rw [e1, e2]

/-- The activation at (n, j) is the cube of the row product. -/
theorem activation_apply (n : Fin 8192) (j : Fin 16384) :
    val_main_v16 (F := Ideal) x0 x1 (ix2 n j)
      = ((∑ h : Fin 256, val_main_v4 (F := Ideal) x0 (ix2 n h) * val_main_v9 (F := Ideal) x1 (ix2 j h))
          * (∑ h : Fin 256, val_main_v4 (F := Ideal) x0 (ix2 n h) * val_main_v9 (F := Ideal) x1 (ix2 j h)))
          * (∑ h : Fin 256, val_main_v4 (F := Ideal) x0 (ix2 n h) * val_main_v9 (F := Ideal) x1 (ix2 j h)) := by
  rw [val_main_v16_apply, val_main_v14_apply, val_main_v15_apply, val_main_v12_apply, val_main_v13_apply,
    val_main_cst_1_apply, similarity_apply]
  show Ideal.pow (max _ (-_)) (Ideal.ofBits .f32 0x40400000#32) * Ideal.sign _ = _
  rw [ofBits_three, cube_law]

/-- THE ECHO: column `c` of the reference's first result is the fused function at column `c` of any 29-column matrix
    that holds the class matrix's column `c` there. -/
theorem echo_apply (C : (⟨2, ![16384, 29]⟩ : Shape).Idx → EReal) (n : Fin 8192) (c : Fin 28)
    (hC : ∀ j : Fin 16384, C (ix2 j ⟨c.val, by omega⟩) = x2 (ix2 j c)) :
    val_main_v18 (F := Ideal) x0 x1 x2 (ix2 n c)
      = fused (val_main_v4 (F := Ideal) x0) (val_main_v9 (F := Ideal) x1) C n ⟨c.val, by omega⟩ := by
  rw [val_main_v18_apply]
  unfold fused
  refine Finset.sum_congr rfl fun j _ => ?_
  have e1 : lidx_main_v18 (ix2 n c) j = ix2 n j :=
    funext fun a => Fin.ext (by match a with | ⟨0, _⟩ => rfl | ⟨1, _⟩ => rfl)
  have e2 : ridx_main_v18 (ix2 n c) j = ix2 j c :=
    funext fun a => Fin.ext (by match a with | ⟨0, _⟩ => rfl | ⟨1, _⟩ => rfl)
  rw [e1, e2, activation_apply, hC]

/-- THE INTENSITY: the reference's second result is the fused function at a column of ones. -/
theorem intensity_apply (C : (⟨2, ![16384, 29]⟩ : Shape).Idx → EReal) (n : Fin 8192)
    (hC : ∀ j : Fin 16384, C (ix2 j (28 : Fin 29)) = 1) :
    val_main_v17 (F := Ideal) x0 x1 (ix1 n)
      = fused (val_main_v4 (F := Ideal) x0) (val_main_v9 (F := Ideal) x1) C n (28 : Fin 29) := by
  rw [val_main_v17_apply, val_main_cst_2_apply]
  show Ideal.ofBits .f32 0x00000000#32 + _ = _
  rw [Ideal.ofBits_zero_f32, zero_add]
  unfold fused
  refine Finset.sum_congr rfl fun j _ => ?_
  have e1 : idx_main_v17 (ix1 n) j = ix2 n j :=
    funext fun a => Fin.ext (by match a with | ⟨0, _⟩ => rfl | ⟨1, _⟩ => rfl)
  rw [e1, activation_apply, hC, mul_one]

end Cert.ReferenceIdeal.RefValue

end
-- ==== Proof.AroundRegion.lean ====
/-
  The host lines around the region.

  Before the region the program normalizes the queries and the exemplars exactly as the reference does (same
  operations, same epsilon word; the change of format that follows is the identity on the extended reals) and appends
  a column of ones to the class matrix. After the region it cuts the 8192 x 29 result into its first 28 columns (the
  echo) and its last column (the intensity).
-/
import proofs.«112141_j56135222559421_2_alg».proof.Proof.OutArray
import proofs.«112141_j56135222559421_2_alg».proof.Proof.RefRead
import Idealize.ShloMosaic.Lib.StableHlo.Run
import Idealize.ShloMosaic.Lib.Tactic

noncomputable section

namespace Cert.KernelIdeal.Around

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)
open Cert.KernelIdeal.Out

variable (m : (ℓ : Loc nD τ sig) → Buf (Elt Ideal) ℓ) (ρ : Dev nD → PrngReg)

/-- The query window's array is the reference's normalized queries. -/
theorem queries_eq (c : Dev nD) :
    queries m c = Cert.ReferenceIdeal.Read.val_main_v4 (F := Ideal) (m ((c : Thread nD τ).loc main_arg0)) := by
  dsimp only [queries, V, V0]
  simp only [hostOps0, hostOps0_1, hostOps0_2, hostOps0_3, List.flatten_cons, List.flatten_nil, List.append_nil,
    List.cons_append, List.nil_append]
  after_results
  rfl

/-- The exemplar window's array is the reference's normalized exemplars. -/
theorem exemplars_eq (c : Dev nD) :
    exemplars m c = Cert.ReferenceIdeal.Read.val_main_v9 (F := Ideal) (m ((c : Thread nD τ).loc main_arg1)) := by
  dsimp only [exemplars, V, V0]
  simp only [hostOps0, hostOps0_1, hostOps0_2, hostOps0_3, List.flatten_cons, List.flatten_nil, List.append_nil,
    List.cons_append, List.nil_append]
  after_results
  rfl

/-- The class window's array is the class matrix with a column of ones appended. -/
theorem classes_eq (c : Dev nD) :
    classes m c = truncf .bf16 (concatenate S16384x29 1
      [⟨S16384x28, m ((c : Thread nD τ).loc main_arg2)⟩,
        ⟨S16384x1, broadcastInDim S16384x1 ![] bcast_S_S16384x1 (constant (F := Ideal) S_ .f32 0x3F800000#32)⟩]
      concatenates_S16384x28_S16384x1_S16384x29_d1) bitsLt_bf16_f32 := by
  dsimp only [classes, V, V0]
  simp only [hostOps0, hostOps0_1, hostOps0_2, hostOps0_3, List.flatten_cons, List.flatten_nil, List.append_nil,
    List.cons_append, List.nil_append]
  after_results

/-- Its first 28 columns are the class matrix's. -/
theorem classes_left (c : Dev nD) (j : Fin 16384) (k : Fin 28) :
    classes m c (ix2 j ⟨k.val, by omega⟩) = m ((c : Thread nD τ).loc main_arg2) (ix2 j k) := by
  rw [classes_eq]
  refine (truncf_apply (ψ := .bf16) _ bitsLt_bf16_f32 _).trans ?_
  exact concatenate_pair_apply_left (t := S16384x29) (s₁ := S16384x28) (s₂ := S16384x1) (1 : Fin 2) _ _
    concatenates_S16384x28_S16384x1_S16384x29_d1
    (ix2 j ⟨k.val, by omega⟩) rfl (ix2 j k) (fun b => by
      match b with
      | ⟨0, _⟩ => rfl
      | ⟨1, _⟩ => rfl)

/-- Its last column is all ones. -/
theorem classes_ones (c : Dev nD) (j : Fin 16384) : classes m c (ix2 j (28 : Fin 29)) = 1 := by
  rw [classes_eq]
  refine (truncf_apply (ψ := .bf16) _ bitsLt_bf16_f32 _).trans ?_
  refine (concatenate_pair_apply_right (t := S16384x29) (s₁ := S16384x28) (s₂ := S16384x1) (1 : Fin 2) _ _
    concatenates_S16384x28_S16384x1_S16384x29_d1
    (ix2 j (28 : Fin 29)) rfl rfl (ix2 j (0 : Fin 1)) (fun b hb => by
      match b with
      | ⟨0, _⟩ => rfl
      | ⟨1, _⟩ => exact absurd rfl hb) rfl).trans ?_
  refine (broadcastInDim_apply _ bcast_S_S16384x1 _ (ix2 j (0 : Fin 1)) ix0 (fun a => a.elim0)).trans ?_
  exact Cert.Cube.ofBits_one

/-! ## After the region -/

/-- The region's array as the lines after it find it: the fused function. -/
theorem region_array (c : Dev nD) :
    Pipeline.withArrays (cfgs 0).spec c (V0 m c) (fun w => (dats m 0 c).arrAt w (cfgs 0).N) (Proc.devRef .tc main_v15)
      = result m c :=
  (Pipeline.withArrays_arr spec0 launch0.win.arr_inj c _ _ 3).trans (final m c)

/-- The first result is the slice of the first 28 columns. -/
theorem tail_echo (c : Dev nD) :
    Pipeline.afterTail₀ cfgs (dats m) 0 (V0 m) [hostOps1] c main_v16
      = extractStridedSlice S8192x28 ![0, 0] (result m c) slices_S8192x29_S8192x28_0_0 := by
  unfold Pipeline.afterTail₀
  show StableHlo.after hostOps1 _ (Proc.devRef .tc main_v16) = _
  after_results
  rw [region_array]

/-- The second result is the last column, its unit axis dropped. -/
theorem tail_intensity (c : Dev nD) :
    Pipeline.afterTail₀ cfgs (dats m) 0 (V0 m) [hostOps1] c main_v18
      = shapeCast S8192 (extractStridedSlice S8192x1 ![0, 28] (result m c) slices_S8192x29_S8192x1_0_28) shapeCasts_S8192x1_S8192 := by
  unfold Pipeline.afterTail₀
  show StableHlo.after hostOps1 _ (Proc.devRef .tc main_v18) = _
  after_results
  rw [region_array]
  rfl

/-- Entry (n, k) of the slice of the first 28 columns. -/
theorem slice_echo_apply (X : S8192x29.Idx → EReal) (n : Fin 8192) (k : Fin 28) :
    extractStridedSlice S8192x28 ![0, 0] X slices_S8192x29_S8192x28_0_0 (ix2 n k) = X (ix2 n ⟨k.val, by omega⟩) :=
  extractStridedSlice_apply _ X _ (ix2 n k) (ix2 n ⟨k.val, by omega⟩) (fun a => by
    match a with
    | ⟨0, _⟩ => show n.val = 0 + n.val; omega
    | ⟨1, _⟩ => show k.val = 0 + k.val; omega)

/-- Entry `n` of the last column with its unit axis dropped. -/
theorem slice_intensity_apply (X : S8192x29.Idx → EReal) (n : Fin 8192) :
    shapeCast S8192 (extractStridedSlice S8192x1 ![0, 28] X slices_S8192x29_S8192x1_0_28) shapeCasts_S8192x1_S8192 (ix1 n)
      = X (ix2 n (28 : Fin 29)) := by
  refine (shapeCast_apply _ shapeCasts_S8192x1_S8192 (ix1 n) (ix2 n (0 : Fin 1)) ?_).trans ?_
  · rw [Shape.rowMajor_val_two, Shape.rowMajor_val_one]
    show n.val * 1 + 0 = n.val
    omega
  · exact extractStridedSlice_apply _ X _ (ix2 n (0 : Fin 1)) (ix2 n (28 : Fin 29)) (fun a => by
      match a with
      | ⟨0, _⟩ => show n.val = 0 + n.val; omega
      | ⟨1, _⟩ => rfl)

/-! ## The two results are the reference's -/

/-- THE ECHO the kernel's program ends with is the reference's: entry (n, k) of both is the fused function of the
    same normalized arrays at column `k` of a matrix holding the class matrix's column `k` there. -/
theorem echo_eq (c : Dev nD) :
    Pipeline.afterTail₀ cfgs (dats m) 0 (V0 m) [hostOps1] c main_v16
      = Cert.ReferenceIdeal.Read.val_main_v18 (F := Ideal) (m ((c.tc : Thread nD τ).loc main_arg0))
          (m ((c.tc : Thread nD τ).loc main_arg1)) (m ((c.tc : Thread nD τ).loc main_arg2)) := by
  rw [tail_echo]
  funext i
  obtain ⟨n, k, rfl⟩ : ∃ (n : Fin 8192) (k : Fin 28), i = ix2 n k := ⟨i 0, i 1, eq_ix2 i⟩
  refine (slice_echo_apply (result m c) n k).trans ?_
  refine (result_apply m c _ n ⟨k.val, by omega⟩ rfl rfl).trans ?_
  rw [queries_eq, exemplars_eq]
  exact (Cert.ReferenceIdeal.RefValue.echo_apply _ _ _ (classes m c) n k (fun j => classes_left m c j k)).symm

/-- THE INTENSITY likewise: the fused function at the column of ones. -/
theorem intensity_eq (c : Dev nD) :
    Pipeline.afterTail₀ cfgs (dats m) 0 (V0 m) [hostOps1] c main_v18
      = Cert.ReferenceIdeal.Read.val_main_v17 (F := Ideal) (m ((c.tc : Thread nD τ).loc main_arg0))
          (m ((c.tc : Thread nD τ).loc main_arg1)) := by
  rw [tail_intensity]
  funext i
  obtain ⟨n, rfl⟩ : ∃ n : Fin 8192, i = ix1 n := ⟨i 0, eq_ix1 i⟩
  refine (slice_intensity_apply (result m c) n).trans ?_
  refine (result_apply m c _ n (28 : Fin 29) rfl rfl).trans ?_
  rw [queries_eq, exemplars_eq]
  exact (Cert.ReferenceIdeal.RefValue.intensity_apply _ _ (classes m c) n (fun j => classes_ones m c j)).symm

/-- THE RUN of the kernel's program on the extended reals: every weakly fair execution terminates, both results at
    the reference's stages of the same arguments, the arguments unchanged. -/
theorem run : θ_run defs (onTc (τ := τ) (main (F := Ideal))) ⟨m, fun _ => 0, ρ⟩ fun r => ∀ c : Dev nD,
      r.2.mem ((c.tc : Thread nD τ).loc main_v16)
        = Cert.ReferenceIdeal.Read.val_main_v18 (F := Ideal) (m ((c.tc : Thread nD τ).loc main_arg0))
            (m ((c.tc : Thread nD τ).loc main_arg1)) (m ((c.tc : Thread nD τ).loc main_arg2))
      ∧ r.2.mem ((c.tc : Thread nD τ).loc main_v18)
        = Cert.ReferenceIdeal.Read.val_main_v17 (F := Ideal) (m ((c.tc : Thread nD τ).loc main_arg0))
            (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v16 (Pipeline.mem_restRefs_of main_v16 (by decide) (by decide))).trans (echo_eq m c),
      ((h c).2 main_v18 (Pipeline.mem_restRefs_of main_v18 (by decide) (by decide))).trans (intensity_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Around

end
-- ==== Proof.lean ====
/-
  The five claims of this certificate.

  The kernel's program normalizes 8192 query rows and 16384 exemplar rows of length 256 (each row divided by the
  larger of its Euclidean norm and a fixed epsilon), appends a column of ones to the 16384 x 28 class matrix, and
  in one pipelined region over an 8 x 16 grid accumulates, for every query n and column c of the extended matrix,
      out n c = Σ_j ((q n · e j) * (q n · e j)) * (q n · e j) * C j c ,
  sixteen blocks of 1024 exemplars at a time; the first 28 columns of `out` are the echo, the last is the intensity.
  The reference normalizes the same way, forms all row products at once, applies `|s| ^ 3 * sign s`, and sums the
  activation over the exemplars with and without the class weights.

  On the extended reals the two programs end with equal results:
    * `|s| ^ 3 * sign s = (s * s) * s` for every extended real `s` (Proof/CubeLaw.lean);
    * the sum over 16384 exemplars is the sum over sixteen blocks of the sums inside each block, and the
      accumulator after each grid point is the running sum of its row block (Proof/FusedSum.lean,
      Proof/TileTerm.lean, Proof/Accumulator.lean, Proof/OutArray.lean);
    * a column of ones turns the weighted sum into the plain sum, and the normalizations are one term
      (Proof/AroundRegion.lean, Proof/RefRead.lean).
  None of these laws needs a finite input, so the precondition is used by the frames only.
  The three frame claims are the generated frame runs; the idealization rewrote nothing, so `preserves` is `True`.
-/
import proofs.«112141_j56135222559421_2_alg».proof.Defs
import proofs.«112141_j56135222559421_2_alg».proof.Proof.Gen.Kernel
import proofs.«112141_j56135222559421_2_alg».proof.Proof.Gen.Kernel.Frame
import proofs.«112141_j56135222559421_2_alg».proof.Proof.Gen.KernelIdeal
import proofs.«112141_j56135222559421_2_alg».proof.Proof.Gen.KernelIdeal.Frame
import proofs.«112141_j56135222559421_2_alg».proof.Proof.Gen.ReferenceIdeal
import proofs.«112141_j56135222559421_2_alg».proof.Proof.Gen.ReferenceIdeal.Run
import proofs.«112141_j56135222559421_2_alg».proof.Proof.Gen.ReferenceIdeal.Read
import proofs.«112141_j56135222559421_2_alg».proof.Proof.Gen.Pre_finite_inputs
import proofs.«112141_j56135222559421_2_alg».proof.Proof.AroundRegion
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does its reading on the extended reals. -/
theorem frame_kernel_ideal : Cert.frame_KernelIdeal := fun m ρ _ => Cert.KernelIdeal.Gen.frame m ρ

/-- The reference is a straight line of host operations: its run, with the two results dropped. -/
theorem frame_reference_ideal : Cert.frame_ReferenceIdeal := fun m ρ _ =>
  (θ_run Cert.ReferenceIdeal.defs _ _).mono (fun _ h c => (h c).2.2)
    (Cert.ReferenceIdeal.Value.run (F := Ideal) m ρ)

/-- The idealization rewrote no operation. -/
theorem preserves : Cert.preserves_Kernel_KernelIdeal := trivial

/-- On the extended reals, from memories agreeing on the three arguments, both programs end with the echo and the
    intensity at the reference's two stages of the kernel's arguments. -/
theorem algebraic : Cert.algebraic_KernelIdeal_ReferenceIdeal := by
  intro m ρ m' ρ' _ hagree
  refine ⟨fun c => Cert.ReferenceIdeal.Read.val_main_v18 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c => Cert.ReferenceIdeal.Read.val_main_v17 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Around.run m ρ, ?_⟩
  refine (θ_run Cert.ReferenceIdeal.defs _ _).mono (fun _ h c => ?_)
    (Cert.ReferenceIdeal.Value.run (F := Ideal) m' ρ')
  obtain ⟨h18, h17, hargs⟩ := h c
  refine ⟨h18.trans ?_, h17.trans ?_, hargs⟩
  · rw [Cert.ReferenceIdeal.Read.val_main_v18_eq, (hagree c).1, (hagree c).2.1, (hagree c).2.2]
  · rw [Cert.ReferenceIdeal.Read.val_main_v17_eq, (hagree c).1, (hagree c).2.1]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
